-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S1024 .f32) (main_arg5 : FVec F S256 .f32) (main_arg6 : FVec F S256 .f32) (main_arg7 : FVec F S256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S131072x256 .f32) (main_arg2 : FVec F S131072x256 .f32) (main_arg3 : FVec F S512x1024 .f32) (main_arg4 : FVec F S1024 .f32) (main_arg5 : FVec F S256 .f32) (main_arg6 : FVec F S256 .f32) (main_arg7 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_v13 main_v16
-- ==== Kernel.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S256x1024 : Shape := ⟨2, ![256, 1024]⟩
abbrev S1x1024 : Shape := ⟨2, ![1, 1024]⟩
abbrev S1x256 : Shape := ⟨2, ![1, 256]⟩
abbrev S1024x256 : Shape := ⟨2, ![1024, 256]⟩
abbrev S1024x1024 : Shape := ⟨2, ![1024, 1024]⟩

abbrev nBuf : Space → Nat
  | .hbm => 18
  | .vmem => 16
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S512x1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S256x1024, .bf16⟩
  | .hbm, ⟨12, _⟩ => ⟨S1x1024, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S131072x256, .f32⟩
  | .hbm, ⟨17, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S512x1024_S256x1024_0_0 : S512x1024.Slices ![0, 0] S256x1024
  bitsLt_bf16_f32 : FTy.bits .bf16 < FTy.bits .f32
  slices_S512x1024_S256x1024_256_0 : S512x1024.Slices ![256, 0] S256x1024
  shapeCasts_S1024_S1x1024 : S1024.ShapeCasts S1x1024
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S131072x256.size a
  hwx0_9 : ∀ i : grid0.Coords, EltTy.bits .f32 = 32 ∨ (Rect.block (s := S131072x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S131072x256.size a
  hwx0_10 : ∀ i : grid0.Coords, EltTy.bits .f32 = 32 ∨ (Rect.block (s := S131072x256) S1024x256.size (cc0_transform_10 i) (hinb0_10 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x256 : Shape := ⟨2, ![131072, 256]⟩
abbrev S512x1024 : Shape := ⟨2, ![512, 1024]⟩
abbrev S1024 : Shape := ⟨1, ![1024]⟩
abbrev S256 : Shape := ⟨1, ![256]⟩
abbrev S131072x512 : Shape := ⟨2, ![131072, 512]⟩
abbrev S131072x1024 : Shape := ⟨2, ![131072, 1024]⟩
abbrev S1x1024 : Shape := ⟨2, ![1, 1024]⟩
abbrev S1x256 : Shape := ⟨2, ![1, 256]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S512x1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S131072x512, .f32⟩
  | .hbm, ⟨9, _⟩ => ⟨S131072x1024, .f32⟩
  | .hbm, ⟨10, _⟩ => ⟨S1x1024, .f32⟩
  | .hbm, ⟨11, _⟩ => ⟨S131072x1024, .f32⟩
  | .hbm, ⟨12, _⟩ => ⟨S131072x1024, .f32⟩
  | .hbm, ⟨13, _⟩ => ⟨S131072x256, .f32⟩
  | .hbm, ⟨14, _⟩ => ⟨S131072x256, .f32⟩
  | .hbm, ⟨15, _⟩ => ⟨S131072x256, .f32⟩
  | .hbm, ⟨16, _⟩ => ⟨S131072x256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S_, .f32⟩
  | .hbm, ⟨24, _⟩ => ⟨S131072x256, .f32⟩
  | .hbm, ⟨25, _⟩ => ⟨S131072x256, .f32⟩
  | .hbm, ⟨26, _⟩ => ⟨S_, .f32⟩
  | .hbm, ⟨27, _⟩ => ⟨S131072x256, .f32⟩
  | .hbm, ⟨28, _⟩ => ⟨S131072x256, .f32⟩
  | .hbm, ⟨29, _⟩ => ⟨S1x256, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S1x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S_, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S131072x256, .f32⟩
  | .hbm, ⟨58, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  concatenates_S131072x256_S131072x256_S131072x512_d1 : Shape.Concatenates [S131072x256, S131072x256] S131072x512 1
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  dot_S131072x512_S512x1024_S131072x1024_1_0_0_1_n_n_wf : DotDims.WF S131072x512 S512x1024 S131072x1024 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf

class Facts : Prop extends Facts₀ where

variable [Facts]
-- ==== Proof.CellSpec.lean ====
/-
  One step of an LSTM cell with peephole connections, over the extended reals, index by index.

  The arguments: the input `x`, the previous hidden state `h` and the previous cell state `c`, each [131072, 256]
  (a batch row by a unit); the weights `W` [512, 1024], whose upper 256 rows multiply the input and whose lower 256
  rows multiply the hidden state; the bias `b` [1024]; and three peephole vectors `pi`, `pf`, `po` [256].

  For a batch row `r` and a column `q` of the weights, the pre-activation is
      z r q = (∑ₖ x (r, k) · W (k, q) + ∑ₖ h (r, k) · W (256 + k, q)) + b q,
  and its 1024 columns are four gates of 256 units: input (columns 0 …), forget (256 …), candidate (512 …) and
  output (768 …). With σ the logistic function, unit `n` of row `r` gets
      c' = σ (z_f + pf n · c) · c + σ (z_i + pi n · c) · tanh z_g        (the new cell state)
      h' = σ (z_o + po n · c) · tanh c'                                  (the new hidden state).

  Two laws join the two programs to these functions. A sum over the 512 rows of the weights is the sum over the
  upper half plus the sum over the lower half, in any commutative monoid (the extended reals under addition are one;
  no finiteness is needed). And the quotient 1 / (1 + e^(-z)) written out in host operations is the logistic function.
-/
import Idealize.ShloMosaic.PureOps.Ideal
import Idealize.ShloMosaic.PureOps.IdealRules
import Idealize.ShloMosaic.Lib.ValueIdx

noncomputable section

open scoped BigOperators

namespace Cert.PeepholeCell

open Idealize.ShloMosaic Idealize.ShloMosaic.ValueIdx

/-- Row `k` of the upper half of the weights (the rows that meet the input). -/
abbrev upper (k : Fin 256) : Fin 512 := ⟨k.val, Nat.lt_trans k.isLt (by decide)⟩

/-- Row `256 + k` of the weights: row `k` of the lower half (the rows that meet the hidden state). -/
abbrev lower (k : Fin 256) : Fin 512 := ⟨256 + k.val, Nat.add_lt_add_left k.isLt 256⟩

/-- Column `n` of the gate whose columns start at `o`. -/
abbrev gateCol (o : Nat) (ho : o + 256 ≤ 1024) (n : Fin 256) : Fin 1024 :=
  ⟨n.val + o, Nat.lt_of_lt_of_le (Nat.add_lt_add_right n.isLt o) (by omega)⟩

/-- A sum over the 512 rows is the sum over the upper 256 plus the sum over the lower 256. -/
theorem sum_halves {M : Type*} [AddCommMonoid M] (f : Fin 512 → M) :
    ∑ k : Fin 512, f k = ∑ k : Fin 256, f (upper k) + ∑ k : Fin 256, f (lower k) :=
  Fin.sum_univ_add (a := 256) (b := 256) f

/-- The pattern of `1.0` denotes the real number one. -/
theorem one_bits : Ideal.ofBits .f32 0x3F800000#32 = 1 := IdealRules.sign_bit.ideal_onePat .f32

/-- The host's spelling of the logistic function, `1 / (1 + exp (-z))` with both ones the pattern of `1.0`, is the
    logistic function on every extended real. -/
theorem host_logistic (z : Ideal .f32) :
    FloatOps.hostDivf (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [one_bits]

variable (x h c : (⟨2, ![131072, 256]⟩ : Shape).Idx → EReal) (W : (⟨2, ![512, 1024]⟩ : Shape).Idx → EReal)
  (b : (⟨1, ![1024]⟩ : Shape).Idx → EReal) (pi pf po : (⟨1, ![256]⟩ : Shape).Idx → EReal)

/-- The pre-activation of batch row `r` at column `q`: the row of the input against the upper half of the column, plus
    the row of the hidden state against the lower half, plus the bias. -/
def preact (r : Fin 131072) (q : Fin 1024) : EReal :=
  (∑ k : Fin 256, x (ix2 r k) * W (ix2 (upper k) q) + ∑ k : Fin 256, h (ix2 r k) * W (ix2 (lower k) q)) + b (ix1 q)

/-- The new cell state: the forget gate times the old state plus the input gate times the candidate; the two gates see
    the old state through their peepholes. -/
def newCell (i : (⟨2, ![131072, 256]⟩ : Shape).Idx) : EReal :=
  Ideal.logistic (preact x h W b (i 0) (gateCol 256 (by decide) (i 1)) + pf (ix1 (i 1)) * c i) * c i
    + Ideal.logistic (preact x h W b (i 0) (gateCol 0 (by decide) (i 1)) + pi (ix1 (i 1)) * c i)
        * Ideal.tanh (preact x h W b (i 0) (gateCol 512 (by decide) (i 1)))

/-- The new hidden state: the output gate (which also sees the OLD cell state through its peephole) times the
    hyperbolic tangent of the new cell state. -/
def newHidden (i : (⟨2, ![131072, 256]⟩ : Shape).Idx) : EReal :=
  Ideal.logistic (preact x h W b (i 0) (gateCol 768 (by decide) (i 1)) + po (ix1 (i 1)) * c i)
    * Ideal.tanh (newCell x h c W b pi pf i)

end Cert.PeepholeCell

end
-- ==== Proof.RefCell.lean ====
/-
  The reference program computes the peephole LSTM step of `CellSpec`, index by index.

  The reference stacks the input and the hidden state side by side into one [131072, 512] matrix and multiplies it by
  the whole weight matrix. Entry (r, q) of that product is a sum over the 512 stacked columns; split into its two
  halves it is the input's row against the upper half of column q plus the hidden state's row against the lower
  half: the pre-activation of the specification. The four gates are slices of 256 columns, the peephole vectors are
  broadcast down the rows, and each logistic function is spelled `1 / (1 + exp (-z))`.
-/
import proofs.«161864_j20177756357192_2_alg».proof.Proof.Gen.ReferenceIdeal.Read
import proofs.«161864_j20177756357192_2_alg».proof.Proof.CellSpec

noncomputable section

open scoped BigOperators

namespace Cert.ReferenceIdeal.RefValue

open Cert.ReferenceIdeal Cert.ReferenceIdeal.Gen Cert.ReferenceIdeal.Read Cert.PeepholeCell
open Idealize.ShloMosaic Idealize.ShloMosaic.TcCoe Idealize.ShloMosaic.ValueIdx

variable (x0 x1 x2 : (⟨S131072x256, .f32⟩ : BufTy).Contents (Elt Ideal)) (x3 : (⟨S512x1024, .f32⟩ : BufTy).Contents (Elt Ideal))
  (x4 : (⟨S1024, .f32⟩ : BufTy).Contents (Elt Ideal)) (x5 x6 x7 : (⟨S256, .f32⟩ : BufTy).Contents (Elt Ideal))

/-- A stacked column in the first 256 is the input's column. -/
theorem stacked_upper (r : Fin 131072) (k : Fin 256) (j : S131072x512.Idx) (h0 : (j 0).val = r.val) (h1 : (j 1).val = k.val) :
    val_main_v0 (F := Ideal) x0 x1 j = x0 (ix2 r k) := by
  unfold val_main_v0
  exact concatenate_pair_apply_left 1 x0 x1 _ j rfl (ix2 r k)
    (fun b => match b with | ⟨0, _⟩ => h0.symm | ⟨1, _⟩ => h1.symm)

/-- A stacked column `256 + k` is the hidden state's column `k`. -/
theorem stacked_lower (r : Fin 131072) (k : Fin 256) (j : S131072x512.Idx) (h0 : (j 0).val = r.val) (h1 : (j 1).val = 256 + k.val) :
    val_main_v0 (F := Ideal) x0 x1 j = x1 (ix2 r k) := by
  unfold val_main_v0
  exact concatenate_pair_apply_right 1 x0 x1 _ j rfl rfl (ix2 r k)
    (fun b => match b with | ⟨0, _⟩ => fun _ => h0.symm | ⟨1, _⟩ => fun hne => absurd (Fin.ext rfl) hne)
    (by show k.val + 256 = (j 1).val; omega)

/-- The product of the stacked matrix with the weights, plus the bias broadcast down the rows, read at (r, q), is the
    specification's pre-activation: the sum over the 512 stacked columns splits into its two halves. -/
theorem ref_preact (j : S131072x1024.Idx) (r : Fin 131072) (q : Fin 1024) (hr : (j 0).val = r.val) (hq : (j 1).val = q.val) :
    val_main_v4 (F := Ideal) x0 x1 x3 x4 j = preact x0 x1 x3 x4 r q := by
  rw [val_main_v4_apply, val_main_v1_apply, val_main_v3_apply, val_main_v2_apply, sum_halves]
  unfold preact
  have eb : idx_main_v2 (idx_main_v3 j) = ix1 q := funext fun a => Fin.ext (by match a with | ⟨0, _⟩ => exact hq)
  have eu : ∀ k : Fin 256, ridx_main_v1 j (upper k) = ix2 (upper k) q := fun k =>
    funext fun a => Fin.ext (by match a with | ⟨0, _⟩ => rfl | ⟨1, _⟩ => exact hq)
  have el : ∀ k : Fin 256, ridx_main_v1 j (lower k) = ix2 (lower k) q := fun k =>
    funext fun a => Fin.ext (by match a with | ⟨0, _⟩ => rfl | ⟨1, _⟩ => exact hq)
  have s1 : (∑ k : Fin 256, val_main_v0 (F := Ideal) x0 x1 (lidx_main_v1 j (upper k)) * x3 (ridx_main_v1 j (upper k)))
      = ∑ k : Fin 256, x0 (ix2 r k) * x3 (ix2 (upper k) q) :=
    Finset.sum_congr rfl fun k _ => by rw [stacked_upper x0 x1 r k _ hr rfl, eu k]
  have s2 : (∑ k : Fin 256, val_main_v0 (F := Ideal) x0 x1 (lidx_main_v1 j (lower k)) * x3 (ridx_main_v1 j (lower k)))
      = ∑ k : Fin 256, x1 (ix2 r k) * x3 (ix2 (lower k) q) :=
    Finset.sum_congr rfl fun k _ => by rw [stacked_lower x0 x1 r k _ hr rfl, el k]
  show (_ + _) + _ = (_ + _) + _
  rw [s1, s2, eb]

/-- The peephole vector broadcast down the rows, read at an index, is its entry at the index's unit. -/
theorem peephole_idx (i : S131072x256.Idx) : idx_main_v9 (idx_main_v10 i) = ix1 (i 1) :=
  funext fun a => by match a with | ⟨0, _⟩ => rfl

/-- The input gate: the logistic function of columns 0 … 255 of the pre-activation plus the peephole term. -/
theorem ref_gate_in (i : S131072x256.Idx) :
    val_main_v18 (F := Ideal) x0 x1 x2 x3 x4 x5 i
      = Ideal.logistic (preact x0 x1 x3 x4 (i 0) (gateCol 0 (by decide) (i 1)) + x5 (ix1 (i 1)) * x2 i) := by
  rw [val_main_v18_apply, val_main_v17_apply, val_main_cst_0_apply, val_main_v16_apply, val_main_v15_apply, val_main_cst_apply,
    val_main_v14_apply, val_main_v13_apply, val_main_v12_apply, val_main_v11_apply, val_main_v10_apply, val_main_v9_apply,
    val_main_v5_apply, host_logistic,
    ref_preact x0 x1 x3 x4 (idx_main_v5 i) (i 0) (gateCol 0 (by decide) (i 1)) rfl rfl]
  exact congrArg (fun u => Ideal.logistic (preact x0 x1 x3 x4 (i 0) (gateCol 0 (by decide) (i 1)) + x5 u * x2 i)) (peephole_idx i)

/-- The forget gate: columns 256 … 511. -/
theorem ref_gate_forget (i : S131072x256.Idx) :
    val_main_v28 (F := Ideal) x0 x1 x2 x3 x4 x6 i
      = Ideal.logistic (preact x0 x1 x3 x4 (i 0) (gateCol 256 (by decide) (i 1)) + x6 (ix1 (i 1)) * x2 i) := by
  rw [val_main_v28_apply, val_main_v27_apply, val_main_cst_2_apply, val_main_v26_apply, val_main_v25_apply, val_main_cst_1_apply,
    val_main_v24_apply, val_main_v23_apply, val_main_v22_apply, val_main_v21_apply, val_main_v20_apply, val_main_v19_apply,
    val_main_v6_apply, host_logistic,
    ref_preact x0 x1 x3 x4 (idx_main_v6 i) (i 0) (gateCol 256 (by decide) (i 1)) rfl (Nat.add_comm _ _)]
  exact congrArg (fun u => Ideal.logistic (preact x0 x1 x3 x4 (i 0) (gateCol 256 (by decide) (i 1)) + x6 u * x2 i)) (peephole_idx i)

/-- The output gate: columns 768 … 1023. -/
theorem ref_gate_out (i : S131072x256.Idx) :
    val_main_v38 (F := Ideal) x0 x1 x2 x3 x4 x7 i
      = Ideal.logistic (preact x0 x1 x3 x4 (i 0) (gateCol 768 (by decide) (i 1)) + x7 (ix1 (i 1)) * x2 i) := by
  rw [val_main_v38_apply, val_main_v37_apply, val_main_cst_4_apply, val_main_v36_apply, val_main_v35_apply, val_main_cst_3_apply,
    val_main_v34_apply, val_main_v33_apply, val_main_v32_apply, val_main_v31_apply, val_main_v30_apply, val_main_v29_apply,
    val_main_v8_apply, host_logistic,
    ref_preact x0 x1 x3 x4 (idx_main_v8 i) (i 0) (gateCol 768 (by decide) (i 1)) rfl (Nat.add_comm _ _)]
  exact congrArg (fun u => Ideal.logistic (preact x0 x1 x3 x4 (i 0) (gateCol 768 (by decide) (i 1)) + x7 u * x2 i)) (peephole_idx i)

/-- The reference's new cell state is the specification's. -/
theorem ref_cell (i : S131072x256.Idx) :
    val_main_v42 (F := Ideal) x0 x1 x2 x3 x4 x5 x6 i = newCell x0 x1 x2 x3 x4 x5 x6 i := by
  rw [val_main_v42_apply, val_main_v40_apply, val_main_v41_apply, val_main_v39_apply, val_main_v7_apply,
    ref_gate_forget, ref_gate_in,
    ref_preact x0 x1 x3 x4 (idx_main_v7 i) (i 0) (gateCol 512 (by decide) (i 1)) rfl (Nat.add_comm _ _)]
  rfl

/-- The reference's new hidden state is the specification's. -/
theorem ref_hidden (i : S131072x256.Idx) :
    val_main_v44 (F := Ideal) x0 x1 x2 x3 x4 x5 x6 x7 i = newHidden x0 x1 x2 x3 x4 x5 x6 x7 i := by
  rw [val_main_v44_apply, val_main_v43_apply, ref_gate_out, ref_cell]
  rfl

/-- As whole arrays. -/
theorem ref_cell_arr : val_main_v42 (F := Ideal) x0 x1 x2 x3 x4 x5 x6 = newCell x0 x1 x2 x3 x4 x5 x6 :=
  funext (ref_cell x0 x1 x2 x3 x4 x5 x6)

theorem ref_hidden_arr : val_main_v44 (F := Ideal) x0 x1 x2 x3 x4 x5 x6 x7 = newHidden x0 x1 x2 x3 x4 x5 x6 x7 :=
  funext (ref_hidden x0 x1 x2 x3 x4 x5 x6 x7)

end Cert.ReferenceIdeal.RefValue

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.BlockGates.lean ====
/-
  The kernel body's pre-activation matrix, read at an index.

  For one block of 1024 batch rows the body forms the [1024, 1024] matrix
      z = (X · Wx + H · Wh) + bias row broadcast down the rows,
  two matrix products accumulated into zero matrices and added. At the extended reals the narrowing of the operands
  to bf16 is the identity and each product entry is a plain sum, so entry (p, q) is
      (∑ₖ X (p, k) · Wx (k, q) + ∑ₖ H (p, k) · Wh (k, q)) + B (0, q).
-/
import proofs.«161864_j20177756357192_2_alg».proof.Proof.Gen.KernelIdeal.Skeleton
import proofs.«161864_j20177756357192_2_alg».proof.Proof.LibPlainMatmul
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.TcCoe Idealize.ShloMosaic.ValueIdx

/-- The bias row broadcast down the 1024 rows, read at (p, q), is the row's entry q. -/
theorem bias_row_apply (B : Vec Ideal S1x1024 .f32) (p q : Fin 1024) :
    broadcastTo S1024x1024 B broadcasts_S1x1024_S1024x1024 (ix2 p q) = B (ix2 0 q) :=
  broadcastTo_apply B broadcasts_S1x1024_S1024x1024 (ix2 p q) (ix2 0 q) (fun a => match a with
    | ⟨0, _⟩ => by show (0 : Nat) = (if (1 : Nat) = 1 then 0 else p.val); rw [if_pos rfl]
    | ⟨1, _⟩ => by show q.val = (if (1024 : Nat) = 1 then 0 else q.val); rw [if_neg (by decide)])

/-- Entry (p, q) of the body's pre-activation matrix. -/
theorem gates_apply (X H : Vec Ideal S1024x256 .f32) (Wx Wh : Vec Ideal S256x1024 .bf16) (B : Vec Ideal S1x1024 .f32)
    (p q : Fin 1024) :
    k0_pay3 X H Wx Wh B (ix2 p q)
      = (∑ k : Fin 256, X (ix2 p k) * Wx (ix2 k q) + ∑ k : Fin 256, H (ix2 p k) * Wh (ix2 k q)) + B (ix2 0 q) := by
  unfold k0_pay3
  show (FloatOps.matmul (F := Ideal) dot_S1024x256_S256x1024_S1024x1024_1_0_0_1_n_n none (truncf .bf16 X bitsLt_bf16_f32)
          (shapeCast S256x1024 Wx shapeCasts_S256x1024_S256x1024) (constant (F := Ideal) S1024x1024 .f32 0x00000000#32) (ix2 p q)
        + FloatOps.matmul (F := Ideal) dot_S1024x256_S256x1024_S1024x1024_1_0_0_1_n_n none (truncf .bf16 H bitsLt_bf16_f32)
          (shapeCast S256x1024 Wh shapeCasts_S256x1024_S256x1024) (constant (F := Ideal) S1024x1024 .f32 0x00000000#32) (ix2 p q))
      + broadcastTo S1024x1024 (shapeCast S1x1024 B shapeCasts_S1x1024_S1x1024) broadcasts_S1x1024_S1024x1024 (ix2 p q) = _
  rw [shapeCast_self, shapeCast_self, shapeCast_self, bias_row_apply,
    PlainMatmul.matmul_zero_apply _ rfl rfl rfl rfl rfl rfl, PlainMatmul.matmul_zero_apply _ rfl rfl rfl rfl rfl rfl]
  rfl

end Cert.KernelIdeal.BlockValue

end
-- ==== Proof.BlockCell.lean ====
/-
  One output block of the kernel, entry by entry, is the specification restricted to the block's rows.

  The body writes two [1024, 256] blocks. With z the body's pre-activation matrix of the block, C the block of the
  old cell state, and Pi, Pf, Po the peephole rows, entry (p, n) of the new cell state's block is
      σ (z (p, n + 256) + Pf (0, n) · C (p, n)) · C (p, n) + σ (z (p, n) + Pi (0, n) · C (p, n)) · tanh z (p, n + 512),
  and the new hidden state's is σ (z (p, n + 768) + Po (0, n) · C (p, n)) · tanh of that. When the blocks X, H, C hold
  rows r0 … r0 + 1023 of the arguments, Wx and Wh the upper and lower halves of the weights, and the one-row blocks the
  bias and peephole vectors, these are the specification's values at row r0 + p.
-/
import proofs.«161864_j20177756357192_2_alg».proof.Proof.Gen.KernelIdeal.Value
import proofs.«161864_j20177756357192_2_alg».proof.Proof.BlockGates
import proofs.«161864_j20177756357192_2_alg».proof.Proof.CellSpec

noncomputable section

open scoped BigOperators

namespace Cert.KernelIdeal.BlockValue

open Cert.KernelIdeal Cert.KernelIdeal.Gen Cert.KernelIdeal.Value Cert.PeepholeCell
open Idealize.ShloMosaic Idealize.ShloMosaic.TcCoe Idealize.ShloMosaic.ValueIdx

/-- Entry (p, n) of the new hidden state's block, in the body's own terms: each slice of the pre-activation matrix
    read at its column, each peephole row at its unit. -/
theorem hidden_entry (P0 P1 : Vec Ideal S1024x256 .f32) (P2 P3 : Vec Ideal S256x1024 .bf16) (P4 : Vec Ideal S1x1024 .f32)
    (P5 : Vec Ideal S1x256 .f32) (P6 : Vec Ideal S1024x256 .f32) (P7 P8 : Vec Ideal S1x256 .f32) (p : Fin 1024) (n : Fin 256) :
    E9 P0 P1 P2 P3 P4 P5 P6 P7 P8 (ix2 p n)
      = Ideal.logistic (k0_pay3 P0 P1 P2 P3 P4 (ix2 p (gateCol 768 (by decide) n)) + P5 (ix2 0 n) * P6 (ix2 p n))
        * Ideal.tanh (Ideal.logistic (k0_pay3 P0 P1 P2 P3 P4 (ix2 p (gateCol 256 (by decide) n)) + P7 (ix2 0 n) * P6 (ix2 p n)) * P6 (ix2 p n)
            + Ideal.logistic (k0_pay3 P0 P1 P2 P3 P4 (ix2 p (gateCol 0 (by decide) n)) + P8 (ix2 0 n) * P6 (ix2 p n))
              * Ideal.tanh (k0_pay3 P0 P1 P2 P3 P4 (ix2 p (gateCol 512 (by decide) n)))) := by
  have ix90 : ix9_0 (ix2 p n) = ix2 p (gateCol 768 (by decide) n) :=
    funext fun a => Fin.ext (by match a with | ⟨0, _⟩ => rfl | ⟨1, _⟩ => rfl)
  have ix91 : ix9_1 (ix2 p n) = ix2 0 n :=
    funext fun a => Fin.ext (by match a with | ⟨0, _⟩ => rfl | ⟨1, _⟩ => rfl)
  have ix92 : ix9_2 (ix2 p n) = ix2 p n :=
    funext fun a => Fin.ext (by match a with | ⟨0, _⟩ => rfl | ⟨1, _⟩ => rfl)
  have ix93 : ix9_3 (ix2 p n) = ix2 p (gateCol 256 (by decide) n) :=
    funext fun a => Fin.ext (by match a with | ⟨0, _⟩ => rfl | ⟨1, _⟩ => rfl)
  have ix94 : ix9_4 (ix2 p n) = ix2 0 n :=
    funext fun a => Fin.ext (by match a with | ⟨0, _⟩ => rfl | ⟨1, _⟩ => rfl)
  have ix95 : ix9_5 (ix2 p n) = ix2 p n :=
    funext fun a => Fin.ext (by match a with | ⟨0, _⟩ => rfl | ⟨1, _⟩ => rfl)
  have ix96 : ix9_6 (ix2 p n) = ix2 p n :=
    funext fun a => Fin.ext (by match a with | ⟨0, _⟩ => rfl | ⟨1, _⟩ => rfl)
  have ix97 : ix9_7 (ix2 p n) = ix2 p (gateCol 0 (by decide) n) :=
    funext fun a => Fin.ext (by match a with | ⟨0, _⟩ => rfl | ⟨1, _⟩ => rfl)
  have ix98 : ix9_8 (ix2 p n) = ix2 0 n :=
    funext fun a => Fin.ext (by match a with | ⟨0, _⟩ => rfl | ⟨1, _⟩ => rfl)
  have ix99 : ix9_9 (ix2 p n) = ix2 p n :=
    funext fun a => Fin.ext (by match a with | ⟨0, _⟩ => rfl | ⟨1, _⟩ => rfl)
  have ix910 : ix9_10 (ix2 p n) = ix2 p (gateCol 512 (by decide) n) :=
    funext fun a => Fin.ext (by match a with | ⟨0, _⟩ => rfl | ⟨1, _⟩ => rfl)
  unfold E9
  beta_reduce
  rw [ix90, ix91, ix92, ix93, ix94, ix95, ix96, ix97, ix98, ix99, ix910]
  rfl

/-- Entry (p, n) of the new cell state's block, in the body's own terms. -/
theorem cell_entry (P0 P1 : Vec Ideal S1024x256 .f32) (P2 P3 : Vec Ideal S256x1024 .bf16) (P4 : Vec Ideal S1x1024 .f32)
    (P5 : Vec Ideal S1x256 .f32) (P6 : Vec Ideal S1024x256 .f32) (P7 : Vec Ideal S1x256 .f32) (p : Fin 1024) (n : Fin 256) :
    E10 P0 P1 P2 P3 P4 P5 P6 P7 (ix2 p n)
      = Ideal.logistic (k0_pay3 P0 P1 P2 P3 P4 (ix2 p (gateCol 256 (by decide) n)) + P5 (ix2 0 n) * P6 (ix2 p n)) * P6 (ix2 p n)
          + Ideal.logistic (k0_pay3 P0 P1 P2 P3 P4 (ix2 p (gateCol 0 (by decide) n)) + P7 (ix2 0 n) * P6 (ix2 p n))
            * Ideal.tanh (k0_pay3 P0 P1 P2 P3 P4 (ix2 p (gateCol 512 (by decide) n))) := by
  have ix100 : ix10_0 (ix2 p n) = ix2 p (gateCol 256 (by decide) n) :=
    funext fun a => Fin.ext (by match a with | ⟨0, _⟩ => rfl | ⟨1, _⟩ => rfl)
  have ix101 : ix10_1 (ix2 p n) = ix2 0 n :=
    funext fun a => Fin.ext (by match a with | ⟨0, _⟩ => rfl | ⟨1, _⟩ => rfl)
  have ix102 : ix10_2 (ix2 p n) = ix2 p n :=
    funext fun a => Fin.ext (by match a with | ⟨0, _⟩ => rfl | ⟨1, _⟩ => rfl)
  have ix103 : ix10_3 (ix2 p n) = ix2 p n :=
    funext fun a => Fin.ext (by match a with | ⟨0, _⟩ => rfl | ⟨1, _⟩ => rfl)
  have ix104 : ix10_4 (ix2 p n) = ix2 p (gateCol 0 (by decide) n) :=
    funext fun a => Fin.ext (by match a with | ⟨0, _⟩ => rfl | ⟨1, _⟩ => rfl)
  have ix105 : ix10_5 (ix2 p n) = ix2 0 n :=
    funext fun a => Fin.ext (by match a with | ⟨0, _⟩ => rfl | ⟨1, _⟩ => rfl)
  have ix106 : ix10_6 (ix2 p n) = ix2 p n :=
    funext fun a => Fin.ext (by match a with | ⟨0, _⟩ => rfl | ⟨1, _⟩ => rfl)
  have ix107 : ix10_7 (ix2 p n) = ix2 p (gateCol 512 (by decide) n) :=
    funext fun a => Fin.ext (by match a with | ⟨0, _⟩ => rfl | ⟨1, _⟩ => rfl)
  unfold E10
  beta_reduce
  rw [ix100, ix101, ix102, ix103, ix104, ix105, ix106, ix107]
  rfl

/-- The block's pre-activation matrix at (p, q) is the specification's pre-activation of row r0 + p: the blocks of
    the input and of the hidden state hold that row, the two weight blocks the two halves of column q. -/
theorem pre_block
    (x h : (⟨2, ![131072, 256]⟩ : Shape).Idx → EReal) (W : (⟨2, ![512, 1024]⟩ : Shape).Idx → EReal)
    (b : (⟨1, ![1024]⟩ : Shape).Idx → EReal)
    (X H : Vec Ideal S1024x256 .f32) (Wx Wh : Vec Ideal S256x1024 .bf16) (B : Vec Ideal S1x1024 .f32) (r0 : Nat)
    (hX : ∀ (z : S1024x256.Idx) (k : S131072x256.Idx), (k 0).val = r0 + (z 0).val → (k 1).val = (z 1).val → X z = x k)
    (hH : ∀ (z : S1024x256.Idx) (k : S131072x256.Idx), (k 0).val = r0 + (z 0).val → (k 1).val = (z 1).val → H z = h k)
    (hWx : ∀ (k : Fin 256) (q : Fin 1024), Wx (ix2 k q) = W (ix2 (upper k) q))
    (hWh : ∀ (k : Fin 256) (q : Fin 1024), Wh (ix2 k q) = W (ix2 (lower k) q))
    (hB : ∀ q : Fin 1024, B (ix2 0 q) = b (ix1 q))
    (p : Fin 1024) (r : Fin 131072) (hr : r.val = r0 + p.val) (q : Fin 1024) :
    k0_pay3 X H Wx Wh B (ix2 p q) = preact x h W b r q := by
  rw [gates_apply]
  unfold preact
  refine congrArg₂ (· + ·) (congrArg₂ (· + ·) (Finset.sum_congr rfl fun k _ => ?_) (Finset.sum_congr rfl fun k _ => ?_)) (hB q)
  · exact congrArg₂ (· * ·) (hX (ix2 p k) (ix2 r k) hr rfl) (hWx k q)
  · exact congrArg₂ (· * ·) (hH (ix2 p k) (ix2 r k) hr rfl) (hWh k q)

/-- THE NEW CELL STATE'S BLOCK is the specification on the block's rows. -/
theorem cell_block
    (x h c : (⟨2, ![131072, 256]⟩ : Shape).Idx → EReal) (W : (⟨2, ![512, 1024]⟩ : Shape).Idx → EReal)
    (b : (⟨1, ![1024]⟩ : Shape).Idx → EReal) (pi pf : (⟨1, ![256]⟩ : Shape).Idx → EReal)
    (X H : Vec Ideal S1024x256 .f32) (Wx Wh : Vec Ideal S256x1024 .bf16) (B : Vec Ideal S1x1024 .f32) (C : Vec Ideal S1024x256 .f32) (Pi Pf : Vec Ideal S1x256 .f32) (r0 : Nat)
    (hX : ∀ (z : S1024x256.Idx) (k : S131072x256.Idx), (k 0).val = r0 + (z 0).val → (k 1).val = (z 1).val → X z = x k)
    (hH : ∀ (z : S1024x256.Idx) (k : S131072x256.Idx), (k 0).val = r0 + (z 0).val → (k 1).val = (z 1).val → H z = h k)
    (hC : ∀ (z : S1024x256.Idx) (k : S131072x256.Idx), (k 0).val = r0 + (z 0).val → (k 1).val = (z 1).val → C z = c k)
    (hWx : ∀ (k : Fin 256) (q : Fin 1024), Wx (ix2 k q) = W (ix2 (upper k) q))
    (hWh : ∀ (k : Fin 256) (q : Fin 1024), Wh (ix2 k q) = W (ix2 (lower k) q))
    (hB : ∀ q : Fin 1024, B (ix2 0 q) = b (ix1 q))
    (hPi : ∀ n : Fin 256, Pi (ix2 0 n) = pi (ix1 n)) (hPf : ∀ n : Fin 256, Pf (ix2 0 n) = pf (ix1 n))
    (y : S1024x256.Idx) (i : S131072x256.Idx) (hi0 : (i 0).val = r0 + (y 0).val) (hi1 : (i 1).val = (y 1).val) :
    E10 X H Wx Wh B Pf C Pi y = newCell x h c W b pi pf i := by
  obtain ⟨p, n, rfl⟩ : ∃ (p : Fin 1024) (n : Fin 256), y = ix2 p n := ⟨y 0, y 1, eq_ix2 y⟩
  obtain ⟨r, n', rfl⟩ : ∃ (r : Fin 131072) (n' : Fin 256), i = ix2 r n' := ⟨i 0, i 1, eq_ix2 i⟩
  obtain rfl : n = n' := (Fin.ext hi1).symm
  have hr : r.val = r0 + p.val := hi0
  have g := pre_block x h W b X H Wx Wh B r0 hX hH hWx hWh hB p r hr
  rw [cell_entry, g, g, g, hPf, hPi, hC (ix2 p n) (ix2 r n) hr rfl]
  rfl

/-- THE NEW HIDDEN STATE'S BLOCK is the specification on the block's rows. -/
theorem hidden_block
    (x h c : (⟨2, ![131072, 256]⟩ : Shape).Idx → EReal) (W : (⟨2, ![512, 1024]⟩ : Shape).Idx → EReal)
    (b : (⟨1, ![1024]⟩ : Shape).Idx → EReal) (pi pf po : (⟨1, ![256]⟩ : Shape).Idx → EReal)
    (X H : Vec Ideal S1024x256 .f32) (Wx Wh : Vec Ideal S256x1024 .bf16) (B : Vec Ideal S1x1024 .f32) (C : Vec Ideal S1024x256 .f32) (Pi Pf Po : Vec Ideal S1x256 .f32) (r0 : Nat)
    (hX : ∀ (z : S1024x256.Idx) (k : S131072x256.Idx), (k 0).val = r0 + (z 0).val → (k 1).val = (z 1).val → X z = x k)
    (hH : ∀ (z : S1024x256.Idx) (k : S131072x256.Idx), (k 0).val = r0 + (z 0).val → (k 1).val = (z 1).val → H z = h k)
    (hC : ∀ (z : S1024x256.Idx) (k : S131072x256.Idx), (k 0).val = r0 + (z 0).val → (k 1).val = (z 1).val → C z = c k)
    (hWx : ∀ (k : Fin 256) (q : Fin 1024), Wx (ix2 k q) = W (ix2 (upper k) q))
    (hWh : ∀ (k : Fin 256) (q : Fin 1024), Wh (ix2 k q) = W (ix2 (lower k) q))
    (hB : ∀ q : Fin 1024, B (ix2 0 q) = b (ix1 q))
    (hPi : ∀ n : Fin 256, Pi (ix2 0 n) = pi (ix1 n)) (hPf : ∀ n : Fin 256, Pf (ix2 0 n) = pf (ix1 n))
    (hPo : ∀ n : Fin 256, Po (ix2 0 n) = po (ix1 n))
    (y : S1024x256.Idx) (i : S131072x256.Idx) (hi0 : (i 0).val = r0 + (y 0).val) (hi1 : (i 1).val = (y 1).val) :
    E9 X H Wx Wh B Po C Pf Pi y = newHidden x h c W b pi pf po i := by
  obtain ⟨p, n, rfl⟩ : ∃ (p : Fin 1024) (n : Fin 256), y = ix2 p n := ⟨y 0, y 1, eq_ix2 y⟩
  obtain ⟨r, n', rfl⟩ : ∃ (r : Fin 131072) (n' : Fin 256), i = ix2 r n' := ⟨i 0, i 1, eq_ix2 i⟩
  obtain rfl : n = n' := (Fin.ext hi1).symm
  have hr : r.val = r0 + p.val := hi0
  have g := pre_block x h W b X H Wx Wh B r0 hX hH hWx hWh hB p r hr
  rw [hidden_entry, g, g, g, g, hPo, hPf, hPi, hC (ix2 p n) (ix2 r n) hr rfl]
  rfl

end Cert.KernelIdeal.BlockValue

end
-- ==== Proof.CellArrays.lean ====
/-
  From blocks to whole arrays: after the kernel's run the two result arrays hold the specification's new hidden state
  and new cell state of the argument arrays.

  The grid has 128 points; point t works on batch rows 1024 t … 1024 t + 1023. The three [131072, 256] arguments are
  staged in blocks of those rows; the other six windows hold one block each, the whole of an array the host
  operations wrote before the launch: the upper and the lower 256 rows of the weights (narrowed to bf16, the identity
  on the extended reals), and the bias and the three peephole vectors as one-row matrices. So at every point the body
  sees exactly what `BlockCell` assumes, what it writes back is the specification restricted to the point's rows,
  and since row r lies in the block of point r / 1024 the blocks cover both result arrays.
-/
import proofs.«161864_j20177756357192_2_alg».proof.Proof.Gen.KernelIdeal.Value
import proofs.«161864_j20177756357192_2_alg».proof.Proof.BlockCell
import Idealize.ShloMosaic.Lib.StableHlo.Run
import Idealize.ShloMosaic.Lib.Pipeline.Value

noncomputable section

namespace Cert.KernelIdeal.ArrayValue

open Cert.KernelIdeal Cert.KernelIdeal.Gen Cert.KernelIdeal.Value Cert.KernelIdeal.BlockValue Cert.PeepholeCell
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the host operations left in the arrays the small windows stage -/

/-- The array window 3 stages, read at (k, q): row k of the upper half of the weights. -/
theorem wx_apply (c : Dev nD) (k : Fin 256) (q : Fin 1024) :
    (V m c main_v1 : S256x1024.Idx → Ideal .bf16) (ix2 k q) = (m ((c : Thread nD τ).loc main_arg3) : S512x1024.Idx → EReal) (ix2 (upper k) q) := by
  have e : (V m c main_v1 : S256x1024.Idx → Ideal .bf16)
      = truncf (F := Ideal) .bf16 (extractStridedSlice S256x1024 ![0, 0] (m ((c : Thread nD τ).loc main_arg3)) slices_S512x1024_S256x1024_0_0) bitsLt_bf16_f32 := by
    dsimp only [Gen.V, Gen.hostOps0]; after_results; try rfl
  rw [e]
  exact extractStridedSlice_apply ![0, 0] _ slices_S512x1024_S256x1024_0_0 (ix2 k q) (ix2 (upper k) q) (fun a => match a with
    | ⟨0, _⟩ => by show k.val = 0 + k.val; omega
    | ⟨1, _⟩ => by show q.val = 0 + q.val; omega)

/-- The array window 4 stages, read at (k, q): row 256 + k of the weights. -/
theorem wh_apply (c : Dev nD) (k : Fin 256) (q : Fin 1024) :
    (V m c main_v3 : S256x1024.Idx → Ideal .bf16) (ix2 k q) = (m ((c : Thread nD τ).loc main_arg3) : S512x1024.Idx → EReal) (ix2 (lower k) q) := by
  have e : (V m c main_v3 : S256x1024.Idx → Ideal .bf16)
      = truncf (F := Ideal) .bf16 (extractStridedSlice S256x1024 ![256, 0] (m ((c : Thread nD τ).loc main_arg3)) slices_S512x1024_S256x1024_256_0) bitsLt_bf16_f32 := by
    dsimp only [Gen.V, Gen.hostOps0]; after_results; try rfl
  rw [e]
  exact extractStridedSlice_apply ![256, 0] _ slices_S512x1024_S256x1024_256_0 (ix2 k q) (ix2 (lower k) q) (fun a => match a with
    | ⟨0, _⟩ => by show 256 + k.val = 256 + k.val; rfl
    | ⟨1, _⟩ => by show q.val = 0 + q.val; omega)

/-- The bias as a one-row matrix, read at (0, q). -/
theorem b_apply (c : Dev nD) (q : Fin 1024) :
    (V m c main_v4 : S1x1024.Idx → Ideal .f32) (ix2 0 q) = (m ((c : Thread nD τ).loc main_arg4) : S1024.Idx → EReal) (ix1 q) := by
  have e : (V m c main_v4 : S1x1024.Idx → Ideal .f32) = shapeCast S1x1024 (m ((c : Thread nD τ).loc main_arg4)) shapeCasts_S1024_S1x1024 := by
    dsimp only [Gen.V, Gen.hostOps0]; after_results; try rfl
  rw [e]
  exact shapeCast_apply _ shapeCasts_S1024_S1x1024 (ix2 0 q) (ix1 q) (by
    rw [Shape.rowMajor_val_one, Shape.rowMajor_val_two]
    show q.val = 0 * 1024 + q.val
    omega)

/-- The input gate's peephole vector as a one-row matrix, read at (0, n). -/
theorem pi_apply (c : Dev nD) (n : Fin 256) :
    (V m c main_v5 : S1x256.Idx → Ideal .f32) (ix2 0 n) = (m ((c : Thread nD τ).loc main_arg5) : S256.Idx → EReal) (ix1 n) := by
  have e : (V m c main_v5 : S1x256.Idx → Ideal .f32) = shapeCast S1x256 (m ((c : Thread nD τ).loc main_arg5)) shapeCasts_S256_S1x256 := by
    dsimp only [Gen.V, Gen.hostOps0]; after_results; try rfl
  rw [e]
  exact shapeCast_apply _ shapeCasts_S256_S1x256 (ix2 0 n) (ix1 n) (by
    rw [Shape.rowMajor_val_one, Shape.rowMajor_val_two]
    show n.val = 0 * 256 + n.val
    omega)

/-- The forget gate's peephole vector as a one-row matrix, read at (0, n). -/
theorem pf_apply (c : Dev nD) (n : Fin 256) :
    (V m c main_v6 : S1x256.Idx → Ideal .f32) (ix2 0 n) = (m ((c : Thread nD τ).loc main_arg6) : S256.Idx → EReal) (ix1 n) := by
  have e : (V m c main_v6 : S1x256.Idx → Ideal .f32) = shapeCast S1x256 (m ((c : Thread nD τ).loc main_arg6)) shapeCasts_S256_S1x256 := by
    dsimp only [Gen.V, Gen.hostOps0]; after_results; try rfl
  rw [e]
  exact shapeCast_apply _ shapeCasts_S256_S1x256 (ix2 0 n) (ix1 n) (by
    rw [Shape.rowMajor_val_one, Shape.rowMajor_val_two]
    show n.val = 0 * 256 + n.val
    omega)

/-- The output gate's peephole vector as a one-row matrix, read at (0, n). -/
theorem po_apply (c : Dev nD) (n : Fin 256) :
    (V m c main_v7 : S1x256.Idx → Ideal .f32) (ix2 0 n) = (m ((c : Thread nD τ).loc main_arg7) : S256.Idx → EReal) (ix1 n) := by
  have e : (V m c main_v7 : S1x256.Idx → Ideal .f32) = shapeCast S1x256 (m ((c : Thread nD τ).loc main_arg7)) shapeCasts_S256_S1x256 := by
    dsimp only [Gen.V, Gen.hostOps0]; after_results; try rfl
  rw [e]
  exact shapeCast_apply _ shapeCasts_S256_S1x256 (ix2 0 n) (ix1 n) (by
    rw [Shape.rowMajor_val_one, Shape.rowMajor_val_two]
    show n.val = 0 * 256 + n.val
    omega)

/-! ## The index maps, decided over the 128 points -/

theorem rows_idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rows_idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem rows_idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem rows_idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem rows_idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem whole_idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem whole_idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem whole_idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem whole_idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem whole_idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem whole_idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## Each window's block at a point -/

/-- The input's block at point t is rows 1024 t … of the input. -/
theorem x_block (c : Dev nD) (t : Fin cfg0.N) (z : S1024x256.Idx) (k : S131072x256.Idx)
    (hk0 : (k 0).val = 1024 * t.val + (z 0).val) (hk1 : (k 1).val = (z 1).val) :
    (iblk m c 0 t : Vec Ideal S1024x256 .f32) z = (m ((c : Thread nD τ).loc main_arg0) : S131072x256.Idx → EReal) k := by
  rw [← V_main_arg0 m c]
  show V m c main_arg0 (((cfg0.win 0).blk t).view.emb z) = V m c main_arg0 k
  refine congrArg _ (funext fun a => Fin.ext ?_)
  obtain ⟨e0, e1⟩ := rows_idx0 t
  match a with
  | ⟨0, _⟩ => show win0_0.index t (0 : Fin 2) * 1024 + 1 * (z 0).val = (k 0).val; omega
  | ⟨1, _⟩ => show win0_0.index t (1 : Fin 2) * 256 + 1 * (z 1).val = (k 1).val; omega

/-- The hidden state's block at point t is rows 1024 t … of the hidden state. -/
theorem h_block (c : Dev nD) (t : Fin cfg0.N) (z : S1024x256.Idx) (k : S131072x256.Idx)
    (hk0 : (k 0).val = 1024 * t.val + (z 0).val) (hk1 : (k 1).val = (z 1).val) :
    (iblk m c 1 t : Vec Ideal S1024x256 .f32) z = (m ((c : Thread nD τ).loc main_arg1) : S131072x256.Idx → EReal) k := by
  rw [← V_main_arg1 m c]
  show V m c main_arg1 (((cfg0.win 1).blk t).view.emb z) = V m c main_arg1 k
  refine congrArg _ (funext fun a => Fin.ext ?_)
  obtain ⟨e0, e1⟩ := rows_idx1 t
  match a with
  | ⟨0, _⟩ => show win0_1.index t (0 : Fin 2) * 1024 + 1 * (z 0).val = (k 0).val; omega
  | ⟨1, _⟩ => show win0_1.index t (1 : Fin 2) * 256 + 1 * (z 1).val = (k 1).val; omega

/-- The cell state's block at point t is rows 1024 t … of the cell state. -/
theorem c_block (c : Dev nD) (t : Fin cfg0.N) (z : S1024x256.Idx) (k : S131072x256.Idx)
    (hk0 : (k 0).val = 1024 * t.val + (z 0).val) (hk1 : (k 1).val = (z 1).val) :
    (iblk m c 2 t : Vec Ideal S1024x256 .f32) z = (m ((c : Thread nD τ).loc main_arg2) : S131072x256.Idx → EReal) k := by
  rw [← V_main_arg2 m c]
  show V m c main_arg2 (((cfg0.win 2).blk t).view.emb z) = V m c main_arg2 k
  refine congrArg _ (funext fun a => Fin.ext ?_)
  obtain ⟨e0, e1⟩ := rows_idx2 t
  match a with
  | ⟨0, _⟩ => show win0_2.index t (0 : Fin 2) * 1024 + 1 * (z 0).val = (k 0).val; omega
  | ⟨1, _⟩ => show win0_2.index t (1 : Fin 2) * 256 + 1 * (z 1).val = (k 1).val; omega

/-- Window 3's one block is the whole of its array. -/
theorem wx_block (c : Dev nD) (t : Fin cfg0.N) (z : S256x1024.Idx) :
    (iblk m c 3 t : Vec Ideal S256x1024 .bf16) z = (V m c main_v1 : S256x1024.Idx → Ideal .bf16) z := by
  show V m c main_v1 (((cfg0.win 3).blk t).view.emb z) = V m c main_v1 z
  refine congrArg _ (funext fun a => Fin.ext ?_)
  obtain ⟨e0, e1⟩ := whole_idx3 t
  match a with
  | ⟨0, _⟩ => show win0_3.index t (0 : Fin 2) * 256 + 1 * (z 0).val = (z 0).val; omega
  | ⟨1, _⟩ => show win0_3.index t (1 : Fin 2) * 1024 + 1 * (z 1).val = (z 1).val; omega

/-- Window 4's one block is the whole of its array. -/
theorem wh_block (c : Dev nD) (t : Fin cfg0.N) (z : S256x1024.Idx) :
    (iblk m c 4 t : Vec Ideal S256x1024 .bf16) z = (V m c main_v3 : S256x1024.Idx → Ideal .bf16) z := by
  show V m c main_v3 (((cfg0.win 4).blk t).view.emb z) = V m c main_v3 z
  refine congrArg _ (funext fun a => Fin.ext ?_)
  obtain ⟨e0, e1⟩ := whole_idx4 t
  match a with
  | ⟨0, _⟩ => show win0_4.index t (0 : Fin 2) * 256 + 1 * (z 0).val = (z 0).val; omega
  | ⟨1, _⟩ => show win0_4.index t (1 : Fin 2) * 1024 + 1 * (z 1).val = (z 1).val; omega

/-- Window 5's one block is the whole of its array. -/
theorem b_block (c : Dev nD) (t : Fin cfg0.N) (z : S1x1024.Idx) :
    (iblk m c 5 t : Vec Ideal S1x1024 .f32) z = (V m c main_v4 : S1x1024.Idx → Ideal .f32) z := by
  show V m c main_v4 (((cfg0.win 5).blk t).view.emb z) = V m c main_v4 z
  refine congrArg _ (funext fun a => Fin.ext ?_)
  obtain ⟨e0, e1⟩ := whole_idx5 t
  match a with
  | ⟨0, _⟩ => show win0_5.index t (0 : Fin 2) * 1 + 1 * (z 0).val = (z 0).val; omega
  | ⟨1, _⟩ => show win0_5.index t (1 : Fin 2) * 1024 + 1 * (z 1).val = (z 1).val; omega

/-- Window 6's one block is the whole of its array. -/
theorem pi_block (c : Dev nD) (t : Fin cfg0.N) (z : S1x256.Idx) :
    (iblk m c 6 t : Vec Ideal S1x256 .f32) z = (V m c main_v5 : S1x256.Idx → Ideal .f32) z := by
  show V m c main_v5 (((cfg0.win 6).blk t).view.emb z) = V m c main_v5 z
  refine congrArg _ (funext fun a => Fin.ext ?_)
  obtain ⟨e0, e1⟩ := whole_idx6 t
  match a with
  | ⟨0, _⟩ => show win0_6.index t (0 : Fin 2) * 1 + 1 * (z 0).val = (z 0).val; omega
  | ⟨1, _⟩ => show win0_6.index t (1 : Fin 2) * 256 + 1 * (z 1).val = (z 1).val; omega

/-- Window 7's one block is the whole of its array. -/
theorem pf_block (c : Dev nD) (t : Fin cfg0.N) (z : S1x256.Idx) :
    (iblk m c 7 t : Vec Ideal S1x256 .f32) z = (V m c main_v6 : S1x256.Idx → Ideal .f32) z := by
  show V m c main_v6 (((cfg0.win 7).blk t).view.emb z) = V m c main_v6 z
  refine congrArg _ (funext fun a => Fin.ext ?_)
  obtain ⟨e0, e1⟩ := whole_idx7 t
  match a with
  | ⟨0, _⟩ => show win0_7.index t (0 : Fin 2) * 1 + 1 * (z 0).val = (z 0).val; omega
  | ⟨1, _⟩ => show win0_7.index t (1 : Fin 2) * 256 + 1 * (z 1).val = (z 1).val; omega

/-- Window 8's one block is the whole of its array. -/
theorem po_block (c : Dev nD) (t : Fin cfg0.N) (z : S1x256.Idx) :
    (iblk m c 8 t : Vec Ideal S1x256 .f32) z = (V m c main_v7 : S1x256.Idx → Ideal .f32) z := by
  show V m c main_v7 (((cfg0.win 8).blk t).view.emb z) = V m c main_v7 z
  refine congrArg _ (funext fun a => Fin.ext ?_)
  obtain ⟨e0, e1⟩ := whole_idx8 t
  match a with
  | ⟨0, _⟩ => show win0_8.index t (0 : Fin 2) * 1 + 1 * (z 0).val = (z 0).val; omega
  | ⟨1, _⟩ => show win0_8.index t (1 : Fin 2) * 256 + 1 * (z 1).val = (z 1).val; omega

/-! ## What the body leaves in the two output buffers, as one function of its loaded blocks -/

/-- The hidden state's buffer after the body: the loads through the whole-buffer rectangles are the blocks. -/
theorem hidden_out (x0 x1 x2 : Vec Ideal S1024x256 .f32) (x3 x4 : Vec Ideal S256x1024 .bf16) (x5 : Vec Ideal S1x1024 .f32)
    (x6 x7 x8 : Vec Ideal S1x256 .f32) :
    out0_9 x0 x1 x2 x3 x4 x5 x6 x7 x8 = E9 x0 x1 x3 x4 x5 x8 x2 x7 x6 := by
  unfold out0_9
  simp only [View.ld_unit_zero (S := S1024x256) hz, View.ld_unit_zero (S := S256x1024) hz, View.ld_unit_zero (S := S1x1024) hz,
    View.ld_unit_zero (S := S1x256) hz]
  exact funext (canon9_eq (F := Ideal) x0 x1 x3 x4 x5 x8 x2 x7 x6)

/-- The cell state's buffer after the body. -/
theorem cell_out (x0 x1 x2 : Vec Ideal S1024x256 .f32) (x3 x4 : Vec Ideal S256x1024 .bf16) (x5 : Vec Ideal S1x1024 .f32)
    (x6 x7 x8 : Vec Ideal S1x256 .f32) :
    out0_10 x0 x1 x2 x3 x4 x5 x6 x7 x8 = E10 x0 x1 x3 x4 x5 x7 x2 x6 := by
  unfold out0_10
  simp only [View.ld_unit_zero (S := S1024x256) hz, View.ld_unit_zero (S := S256x1024) hz, View.ld_unit_zero (S := S1x1024) hz,
    View.ld_unit_zero (S := S1x256) hz]
  exact funext (canon10_eq (F := Ideal) x0 x1 x3 x4 x5 x7 x2 x6)

/-! ## The new hidden state (output window 9) -/

/-- WHAT POINT t WRITES BACK is block t of the specification's new hidden state of the argument arrays. -/
theorem hidden_flushed (c : Dev nD) (t : Fin cfg0.N) :
    (dats m 0 c).flushed 9 t = ((cfg0.win 9).blk t).view.read (Elt Ideal) (newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  funext y
  show out0_9 (iblk m c 0 t) (iblk m c 1 t) (iblk m c 2 t) (iblk m c 3 t) (iblk m c 4 t) (iblk m c 5 t) (iblk m c 6 t) (iblk m c 7 t) (iblk m c 8 t) y
    = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb y)
  refine (congrFun (hidden_out (iblk m c 0 t) (iblk m c 1 t) (iblk m c 2 t) (iblk m c 3 t) (iblk m c 4 t) (iblk m c 5 t) (iblk m c 6 t) (iblk m c 7 t) (iblk m c 8 t)) y).trans ?_
  obtain ⟨e0, e1⟩ := rows_idx9 t
  refine hidden_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 1 t) (iblk m c 3 t) (iblk m c 4 t) (iblk m c 5 t) (iblk m c 2 t) (iblk m c 6 t) (iblk m c 7 t) (iblk m c 8 t) (1024 * t.val)
    (fun z k h0 h1 => x_block m c t z k h0 h1) (fun z k h0 h1 => h_block m c t z k h0 h1) (fun z k h0 h1 => c_block m c t z k h0 h1)
    (fun k q => (wx_block m c t (ix2 k q)).trans (wx_apply m c k q)) (fun k q => (wh_block m c t (ix2 k q)).trans (wh_apply m c k q))
    (fun q => (b_block m c t (ix2 0 q)).trans (b_apply m c q))
    (fun n => (pi_block m c t (ix2 0 n)).trans (pi_apply m c n)) (fun n => (pf_block m c t (ix2 0 n)).trans (pf_apply m c n))
    (fun n => (po_block m c t (ix2 0 n)).trans (po_apply m c n)) y _ ?_ ?_
  · show win0_9.index t (0 : Fin 2) * 1024 + 1 * (y 0).val = 1024 * t.val + (y 0).val; omega
  · show win0_9.index t (1 : Fin 2) * 256 + 1 * (y 1).val = (y 1).val; omega

/-- An index of the array is in point t's block iff each coordinate is in the block's range on its axis. -/
theorem mem_blk9 (t : Fin cfg0.N) (i : S131072x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v8_0).slice (win0_9.rect t)).set ↔ _
  rw [View.set_slice_whole, Rect.mem_set_unit]
  exact Iff.rfl

/-- Row r is in the block of point r / 1024: the blocks cover the array. -/
theorem hidden_cover (i : S131072x256.Idx) : ∃ t : Fin cfg0.N, (cfg0.win 9).flush t = true ∧ i ∈ ((cfg0.win 9).blk t).view.set := by
  have hi0 : (i 0).val < 131072 := (i 0).isLt
  have hi1 : (i 1).val < 256 := (i 1).isLt
  have hN : cfg0.N = 128 := N_0
  have ht : (i 0).val / 1024 < cfg0.N := by rw [hN]; omega
  refine ⟨⟨(i 0).val / 1024, ht⟩, flush0_9 _, ?_⟩
  rw [mem_blk9]
  obtain ⟨e0, e1⟩ := rows_idx9 ⟨(i 0).val / 1024, ht⟩
  intro a
  match a with
  | ⟨0, _⟩ =>
    show win0_9.index ⟨(i 0).val / 1024, ht⟩ (0 : Fin 2) * 1024 ≤ (i 0).val ∧ (i 0).val < win0_9.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_9.index ⟨(i 0).val / 1024, ht⟩ (1 : Fin 2) * 256 ≤ (i 1).val ∧ (i 1).val < win0_9.index ⟨(i 0).val / 1024, ht⟩ (1 : Fin 2) * 256 + 256
    rw [e1]; omega

/-- THE ARRAY after the run is the specification's new hidden state. -/
theorem hidden_final (c : Dev nD) : (dats m 0 c).arrAt 9 cfg0.N = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 (newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => hidden_flushed m c t) hidden_cover

/-! ## The new cell state (output window 10) -/

/-- WHAT POINT t WRITES BACK is block t of the specification's new cell state of the argument arrays. -/
theorem cell_flushed (c : Dev nD) (t : Fin cfg0.N) :
    (dats m 0 c).flushed 10 t = ((cfg0.win 10).blk t).view.read (Elt Ideal) (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed10]
  funext y
  show out0_10 (iblk m c 0 t) (iblk m c 1 t) (iblk m c 2 t) (iblk m c 3 t) (iblk m c 4 t) (iblk m c 5 t) (iblk m c 6 t) (iblk m c 7 t) (iblk m c 8 t) y
    = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y)
  refine (congrFun (cell_out (iblk m c 0 t) (iblk m c 1 t) (iblk m c 2 t) (iblk m c 3 t) (iblk m c 4 t) (iblk m c 5 t) (iblk m c 6 t) (iblk m c 7 t) (iblk m c 8 t)) y).trans ?_
  obtain ⟨e0, e1⟩ := rows_idx10 t
  refine cell_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 3 t) (iblk m c 4 t) (iblk m c 5 t) (iblk m c 2 t) (iblk m c 6 t) (iblk m c 7 t) (1024 * t.val)
    (fun z k h0 h1 => x_block m c t z k h0 h1) (fun z k h0 h1 => h_block m c t z k h0 h1) (fun z k h0 h1 => c_block m c t z k h0 h1)
    (fun k q => (wx_block m c t (ix2 k q)).trans (wx_apply m c k q)) (fun k q => (wh_block m c t (ix2 k q)).trans (wh_apply m c k q))
    (fun q => (b_block m c t (ix2 0 q)).trans (b_apply m c q))
    (fun n => (pi_block m c t (ix2 0 n)).trans (pi_apply m c n)) (fun n => (pf_block m c t (ix2 0 n)).trans (pf_apply m c n))
    y _ ?_ ?_
  · show win0_10.index t (0 : Fin 2) * 1024 + 1 * (y 0).val = 1024 * t.val + (y 0).val; omega
  · show win0_10.index t (1 : Fin 2) * 256 + 1 * (y 1).val = (y 1).val; omega

theorem mem_blk10 (t : Fin cfg0.N) (i : S131072x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v8_1).slice (win0_10.rect t)).set ↔ _
  rw [View.set_slice_whole, Rect.mem_set_unit]
  exact Iff.rfl

theorem cell_cover (i : S131072x256.Idx) : ∃ t : Fin cfg0.N, (cfg0.win 10).flush t = true ∧ i ∈ ((cfg0.win 10).blk t).view.set := by
  have hi0 : (i 0).val < 131072 := (i 0).isLt
  have hi1 : (i 1).val < 256 := (i 1).isLt
  have hN : cfg0.N = 128 := N_0
  have ht : (i 0).val / 1024 < cfg0.N := by rw [hN]; omega
  refine ⟨⟨(i 0).val / 1024, ht⟩, flush0_10 _, ?_⟩
  rw [mem_blk10]
  obtain ⟨e0, e1⟩ := rows_idx10 ⟨(i 0).val / 1024, ht⟩
  intro a
  match a with
  | ⟨0, _⟩ =>
    show win0_10.index ⟨(i 0).val / 1024, ht⟩ (0 : Fin 2) * 1024 ≤ (i 0).val ∧ (i 0).val < win0_10.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_10.index ⟨(i 0).val / 1024, ht⟩ (1 : Fin 2) * 256 ≤ (i 1).val ∧ (i 1).val < win0_10.index ⟨(i 0).val / 1024, ht⟩ (1 : Fin 2) * 256 + 256
    rw [e1]; omega

/-- THE ARRAY after the run is the specification's new cell state. -/
theorem cell_final (c : Dev nD) : (dats m 0 c).arrAt 10 cfg0.N = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 10 (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => cell_flushed m c t) cell_cover

/-! ## The run, read -/

/-- Every weakly fair execution of the kernel's program terminates with the first result array at the specification's new
    hidden state and the second at its new cell state, the arguments unchanged. -/
theorem run : θ_run defs (onTc (τ := τ) (main (F := Ideal))) ⟨m, fun _ => 0, ρ⟩ fun r => ∀ c : Dev nD,
      r.2.mem ((c : Thread nD τ).loc main_v8_0) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8_1) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (hidden_final m c), (h c).2.1.trans (cell_final m c), (h c).2.2⟩)
    (Value.run_blocks m ρ)

end Cert.KernelIdeal.ArrayValue

end
-- ==== Proof.lean ====
/-
  The kernel and its reference compute one step of an LSTM cell with peephole connections, and the two agree over the
  extended reals.

  The kernel works on 128 blocks of 1024 batch rows. On a block it multiplies the input by the upper half of the weights
  and the previous hidden state by the lower half, adds the two products and the bias, cuts the result into the four
  gates, and forms the new cell state and the new hidden state entry by entry. The reference stacks the input and the
  hidden state side by side, multiplies the stacked matrix by the whole weight matrix once, and does the same gate
  arithmetic on whole arrays, with each logistic function spelled out as a quotient.

  Both are the specification of `Proof/CellSpec.lean`: a sum over the 512 rows of the weights is the sum over its upper
  half plus the sum over its lower half, and `1 / (1 + exp (-z))` is the logistic function of `z`. Neither law needs the
  inputs to be finite, so the precondition is never opened. The idealization of the kernel rewrote nothing, so the
  `preserves` conjunct is `True`; the three frames are the generated ones (the reference's is its run with the results
  dropped).
-/
import proofs.«161864_j20177756357192_2_alg».proof.Defs
import proofs.«161864_j20177756357192_2_alg».proof.Proof.Gen.Kernel
import proofs.«161864_j20177756357192_2_alg».proof.Proof.Gen.Kernel.Skeleton
import proofs.«161864_j20177756357192_2_alg».proof.Proof.Gen.Kernel.Launch
import proofs.«161864_j20177756357192_2_alg».proof.Proof.Gen.Kernel.Points
import proofs.«161864_j20177756357192_2_alg».proof.Proof.Gen.Kernel.Frame
import proofs.«161864_j20177756357192_2_alg».proof.Proof.Gen.KernelIdeal
import proofs.«161864_j20177756357192_2_alg».proof.Proof.Gen.KernelIdeal.Skeleton
import proofs.«161864_j20177756357192_2_alg».proof.Proof.Gen.KernelIdeal.Launch
import proofs.«161864_j20177756357192_2_alg».proof.Proof.Gen.KernelIdeal.Points
import proofs.«161864_j20177756357192_2_alg».proof.Proof.Gen.KernelIdeal.Frame
import proofs.«161864_j20177756357192_2_alg».proof.Proof.Gen.ReferenceIdeal
import proofs.«161864_j20177756357192_2_alg».proof.Proof.Gen.Pre_finite_inputs
import proofs.«161864_j20177756357192_2_alg».proof.Proof.Gen.KernelIdeal.Value
import proofs.«161864_j20177756357192_2_alg».proof.Proof.Gen.ReferenceIdeal.Run
import proofs.«161864_j20177756357192_2_alg».proof.Proof.Gen.ReferenceIdeal.Read
import proofs.«161864_j20177756357192_2_alg».proof.Proof.CellSpec
import proofs.«161864_j20177756357192_2_alg».proof.Proof.RefCell
import proofs.«161864_j20177756357192_2_alg».proof.Proof.CellArrays
import Idealize.ShloMosaic.Adequacy
import Idealize.ShloMosaic.Init

noncomputable section

namespace Cert.Proof

open Idealize.ShloMosaic Idealize.ShloMosaic.TcCoe Idealize.SL.Sem Cert.PeepholeCell

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the eight arguments, the kernel ends with its two result arrays at the specification's
    new hidden state and new cell state, and the reference ends with its results at the same two functions: its
    stacked product splits into the kernel's two products, and its quotients are the kernel's logistic functions. -/
theorem algebraic : Cert.algebraic_KernelIdeal_ReferenceIdeal := by
  intro m ρ m' ρ' _ hagree
  refine ⟨fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1, (h c).1, (h c).2⟩)
      (Cert.KernelIdeal.ArrayValue.run m ρ)
  · refine (θ_run Cert.ReferenceIdeal.defs _ _).mono (fun _ h c => ?_) (Cert.ReferenceIdeal.Value.run (F := Ideal) m' ρ')
    obtain ⟨a0, a1, a2, a3, a4, a5, a6, a7⟩ := hagree c
    obtain ⟨h0, h1, h2, hargs⟩ := h c
    have eh := (Cert.ReferenceIdeal.Read.val_main_v44_eq (F := Ideal) _ _ _ _ _ _ _ _).trans
      (Cert.ReferenceIdeal.RefValue.ref_hidden_arr
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)))
    have ec := (Cert.ReferenceIdeal.Read.val_main_v42_eq (F := Ideal) _ _ _ _ _ _ _).trans
      (Cert.ReferenceIdeal.RefValue.ref_cell_arr
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)))
    have mh : newHidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      rw [a0, a1, a2, a3, a4, a5, a6, a7]
    have mc : newCell (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        = newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [a0, a1, a2, a3, a4, a5, a6]
    exact ⟨h0.trans (eh.trans mh), h1.trans (eh.trans mh), h2.trans (ec.trans mc), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
